-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S2x3x64x64 : Shape := ⟨4, ![2, 3, 64, 64]⟩
abbrev S2x64 : Shape := ⟨2, ![2, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x3x64x64 : S_.BroadcastsInDim S2x3x64x64 (![] : Fin 0 → Fin S2x3x64x64.rank)
  reducesTo_S2x3x64x64_S_d0_1_2_3 : S2x3x64x64.ReducesTo [0, 1, 2, 3] S_
  bcast_S_S2x64 : S_.BroadcastsInDim S2x64 (![] : Fin 0 → Fin S2x64.rank)
  reducesTo_S2x64_S_d0_1 : S2x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S2x3x64x64 .f32) (main_arg4 : FVec F S2x64 .f32) (main_arg5 : FVec F S64x1 .f32) (main_arg6 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x3x64x64 .f32 := Host.absf main_arg3
  let main_cst_0 : FVec F S_ .f32 := constant S_ .f32 0x7F800000#32
  let main_v5 : FVec F S2x3x64x64 .f32 := broadcastInDim S2x3x64x64 ![] bcast_S_S2x3x64x64 main_cst_0
  let main_v6 : IVec S2x3x64x64 1 := cmpf .olt main_v4 main_v5
  let main_c_1 : IVec S_ 1 := constantI S_ 1 1#1
  let main_v7 : IVec S_ 1 := (fun x v => Host.reduce IntOp.andi x v reducesTo_S2x3x64x64_S_d0_1_2_3 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S2x3x64x64 : Shape := ⟨4, ![2, 3, 64, 64]⟩
abbrev S2x64 : Shape := ⟨2, ![2, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x3x64x64 : Shape := ⟨4, ![1, 3, 64, 64]⟩
abbrev S3x64x64 : Shape := ⟨3, ![3, 64, 64]⟩
abbrev S1x64 : Shape := ⟨2, ![1, 64]⟩
abbrev S64 : Shape := ⟨1, ![64]⟩
abbrev S800000x64 : Shape := ⟨2, ![800000, 64]⟩
abbrev S5000x64 : Shape := ⟨2, ![5000, 64]⟩
abbrev S1x64x64 : Shape := ⟨3, ![1, 64, 64]⟩
abbrev S64x64 : Shape := ⟨2, ![64, 64]⟩
abbrev S5000x1 : Shape := ⟨2, ![5000, 1]⟩
abbrev S1x1 : Shape := ⟨2, ![1, 1]⟩

abbrev nBuf : Space → Nat
  | .hbm => 110
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S2x3x64x64, .f32⟩
  | .hbm, ⟨4, _⟩ => ⟨S2x64, .f32⟩
  | .hbm, ⟨5, _⟩ => ⟨S64x1, .f32⟩
  | .hbm, ⟨6, _⟩ => ⟨S1, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S1x3x64x64, .f32⟩
  | .hbm, ⟨22, _⟩ => ⟨S3x64x64, .f32⟩
  | .hbm, ⟨23, _⟩ => ⟨S1x64, .f32⟩
  | .hbm, ⟨24, _⟩ => ⟨S64, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x3x64x64, .f32⟩
  | .hbm, ⟨66, _⟩ => ⟨S3x64x64, .f32⟩
  | .hbm, ⟨67, _⟩ => ⟨S1x64, .f32⟩
  | .hbm, ⟨68, _⟩ => ⟨S64, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S_, .f32⟩
  | .hbm, ⟨81, _⟩ => ⟨S50000x64, .f32⟩
  | .hbm, ⟨82, _⟩ => ⟨S800000x1, .i32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x64, .f32⟩
  | .hbm, ⟨98, _⟩ => ⟨S_, .f32⟩
  | .hbm, ⟨99, _⟩ => ⟨S50000x64, .f32⟩
  | .hbm, ⟨100, _⟩ => ⟨S800000x1, .i32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x1, .f32⟩
  | .local _ .vmem, ⟨23, _⟩ => ⟨S1, .f32⟩
  | .local _ .vmem, ⟨24, _⟩ => ⟨S5000x1, .f32⟩
  | .local _ .vmem, ⟨25, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x3x64x64_S1x3x64x64_0_0_0_0 : S2x3x64x64.Slices ![0, 0, 0, 0] S1x3x64x64
  shapeCasts_S1x3x64x64_S3x64x64 : S1x3x64x64.ShapeCasts S3x64x64
  slices_S2x64_S1x64_0_0 : S2x64.Slices ![0, 0] S1x64
  shapeCasts_S1x64_S64 : S1x64.ShapeCasts S64
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S2x3x64x64_S1x3x64x64_1_0_0_0 : S2x3x64x64.Slices ![1, 0, 0, 0] S1x3x64x64
  slices_S2x64_S1x64_1_0 : S2x64.Slices ![1, 0] S1x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v81) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v81) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S2x3x64x64 : Shape := ⟨4, ![2, 3, 64, 64]⟩
abbrev S2x64 : Shape := ⟨2, ![2, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x3x64x64 : Shape := ⟨4, ![1, 3, 64, 64]⟩
abbrev S3x64x64 : Shape := ⟨3, ![3, 64, 64]⟩
abbrev S1x64 : Shape := ⟨2, ![1, 64]⟩
abbrev S64 : Shape := ⟨1, ![64]⟩
abbrev S800000x64 : Shape := ⟨2, ![800000, 64]⟩
abbrev S1x64x64 : Shape := ⟨3, ![1, 64, 64]⟩
abbrev S64x64 : Shape := ⟨2, ![64, 64]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S2x3x64x64, .f32⟩
  | 4 => ⟨S2x64, .f32⟩
  | 5 => ⟨S64x1, .f32⟩
  | 6 => ⟨S1, .f32⟩
  | 7 => ⟨S_, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S_, .f32⟩
  | 14 => ⟨S_, .f32⟩
  | 15 => ⟨S50000, .f32⟩
  | 16 => ⟨S50000, .f32⟩
  | 17 => ⟨S_, .f32⟩
  | 18 => ⟨S50000, .f32⟩
  | 19 => ⟨S50000, .f32⟩
  | 20 => ⟨S50000x1, .f32⟩
  | 21 => ⟨S1x3x64x64, .f32⟩
  | 22 => ⟨S3x64x64, .f32⟩
  | 23 => ⟨S1x64, .f32⟩
  | 24 => ⟨S64, .f32⟩
  | 25 => ⟨S50000x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x64, .f32⟩
  | 41 => ⟨S50000x64, .f32⟩
  | 42 => ⟨S50000x64, .f32⟩
  | 43 => ⟨S1x64x64, .f32⟩
  | 44 => ⟨S64x64, .f32⟩
  | 45 => ⟨S50000x64, .f32⟩
  | 46 => ⟨S1x64x64, .f32⟩
  | 47 => ⟨S64x64, .f32⟩
  | 48 => ⟨S50000x64, .f32⟩
  | 49 => ⟨S50000x64, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S1x64x64, .f32⟩
  | 72 => ⟨S64x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S1x3x64x64, .f32⟩
  | 82 => ⟨S3x64x64, .f32⟩
  | 83 => ⟨S1x64, .f32⟩
  | 84 => ⟨S64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S50000x64, .f32⟩
  | 101 => ⟨S50000x64, .f32⟩
  | 102 => ⟨S50000x64, .f32⟩
  | 103 => ⟨S1x64x64, .f32⟩
  | 104 => ⟨S64x64, .f32⟩
  | 105 => ⟨S50000x64, .f32⟩
  | 106 => ⟨S1x64x64, .f32⟩
  | 107 => ⟨S64x64, .f32⟩
  | 108 => ⟨S50000x64, .f32⟩
  | 109 => ⟨S50000x64, .f32⟩
  | 110 => ⟨S50000x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S50000x64, .f32⟩
  | 126 => ⟨S50000x64, .f32⟩
  | 127 => ⟨S_, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64x64, .f32⟩
  | 4 => ⟨S64x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x1, .f32⟩
  | 14 => ⟨S1x1, .f32⟩
  | 15 => ⟨S50000x1, .f32⟩
  | 16 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call1_cst : Ref sig .tc := ⟨.hbm, 78, rfl⟩
abbrev main_call1_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_9 : Ref sig .tc := ⟨.hbm, 87, rfl⟩
abbrev main_v65 : Ref sig .tc := ⟨.hbm, 88, rfl⟩
abbrev main_v66 : Ref sig .tc := ⟨.hbm, 89, rfl⟩
abbrev main_c_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_12 : Ref sig .tc := ⟨.hbm, 112, rfl⟩
abbrev main_v87 : Ref sig .tc := ⟨.hbm, 113, rfl⟩
abbrev main_v88 : Ref sig .tc := ⟨.hbm, 114, rfl⟩
abbrev main_c_13 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_14 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_call2_cst : Ref sig .tc := ⟨.hbm, 138, rfl⟩
abbrev main_call2_v0 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x3x64x64_S1x3x64x64_0_0_0_0 : S2x3x64x64.Slices ![0, 0, 0, 0] S1x3x64x64
  shapeCasts_S1x3x64x64_S3x64x64 : S1x3x64x64.ShapeCasts S3x64x64
  slices_S2x64_S1x64_0_0 : S2x64.Slices ![0, 0] S1x64
  shapeCasts_S1x64_S64 : S1x64.ShapeCasts S64
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x3x64x64_S1x3x64x64_1_0_0_0 : S2x3x64x64.Slices ![1, 0, 0, 0] S1x3x64x64
  slices_S2x64_S1x64_1_0 : S2x64.Slices ![1, 0] S1x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel program's run with its result named.

  The program is seven segments: three stretches of host operations, the first dense stage, a fourth stretch, the second
  dense stage, the head.  The buffer contents at each segment boundary are a fold from the launch memory; after the last
  segment every unscoped buffer holds the last boundary's contents.  Reading the result buffer and the seven argument
  buffers against that boundary gives: every weakly fair execution terminates without a fault, the result buffer holds
  the last boundary's contents there, and the arguments are as launched.
-/
import proofs.«145478_j84121229460235_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v82) = W7 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v82 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Run

end
-- ==== Proof.Spec.lean ====
/-
  One Chebyshev layer's dense stage and the prediction head, as functions of whole arrays over the extended reals,
  for any number of rows R.

  The dense stage of a layer takes the three Chebyshev terms T0, T1, T2 (R rows of 64 features), the layer's three
  64 x 64 weight matrices stacked as one [3, 64, 64] array, and its 64 biases; row p, feature q of the result is

      max ( ((sum_k T0[p,k] W[0,k,q] + sum_k T1[p,k] W[1,k,q]) + sum_k T2[p,k] W[2,k,q]) + b[q] , 0 ).

  The head maps R rows of 64 features to one number per row:  sum_k h[p,k] pw[k,0] + pb[0].

  Both are row-local: row p of the result reads row p of the row-indexed operands only.  So a block of consecutive
  rows of the result is the same function of the corresponding blocks of the operands (`combine_rows`, `head_rows`).
-/
import Idealize.ShloMosaic.PureOps.Ideal.Laws
import Idealize.ShloMosaic.Lib.ValueIdx

noncomputable section

namespace Cheb

open Idealize.ShloMosaic Idealize.ShloMosaic.ValueIdx

variable {R : Nat}

/-- Row `p`, feature `q` of a layer's dense stage. -/
def combineAt (t0 t1 t2 : FVec Ideal ⟨2, ![R, 64]⟩ .f32) (w : FVec Ideal ⟨3, ![3, 64, 64]⟩ .f32)
    (b : FVec Ideal ⟨1, ![64]⟩ .f32) (p : Fin R) (q : Fin 64) : EReal :=
  max ((((∑ k : Fin 64, t0 (ix2 p k) * w (ix3 (0 : Fin 3) k q)) + (∑ k : Fin 64, t1 (ix2 p k) * w (ix3 (1 : Fin 3) k q)))
      + (∑ k : Fin 64, t2 (ix2 p k) * w (ix3 (2 : Fin 3) k q))) + b (ix1 q))
    (Ideal.ofBits .f32 0x00000000#32)

/-- A layer's dense stage on R rows. -/
def combine (t0 t1 t2 : FVec Ideal ⟨2, ![R, 64]⟩ .f32) (w : FVec Ideal ⟨3, ![3, 64, 64]⟩ .f32)
    (b : FVec Ideal ⟨1, ![64]⟩ .f32) : FVec Ideal ⟨2, ![R, 64]⟩ .f32 :=
  fun i => combineAt t0 t1 t2 w b (i 0) (i 1)

theorem combine_ix2 (t0 t1 t2 : FVec Ideal ⟨2, ![R, 64]⟩ .f32) (w : FVec Ideal ⟨3, ![3, 64, 64]⟩ .f32)
    (b : FVec Ideal ⟨1, ![64]⟩ .f32) (p : Fin R) (q : Fin 64) :
    combine t0 t1 t2 w b (ix2 p q) = combineAt t0 t1 t2 w b p q := rfl

/-- Row `p` of the head. -/
def headAt (h : FVec Ideal ⟨2, ![R, 64]⟩ .f32) (pw : FVec Ideal ⟨2, ![64, 1]⟩ .f32) (pb : FVec Ideal ⟨1, ![1]⟩ .f32)
    (p : Fin R) : EReal :=
  (∑ k : Fin 64, h (ix2 p k) * pw (ix2 k (0 : Fin 1))) + pb (ix1 (0 : Fin 1))

/-- The head on R rows. -/
def head (h : FVec Ideal ⟨2, ![R, 64]⟩ .f32) (pw : FVec Ideal ⟨2, ![64, 1]⟩ .f32) (pb : FVec Ideal ⟨1, ![1]⟩ .f32) :
    FVec Ideal ⟨2, ![R, 1]⟩ .f32 :=
  fun i => headAt h pw pb (i 0)

theorem head_ix2 (h : FVec Ideal ⟨2, ![R, 64]⟩ .f32) (pw : FVec Ideal ⟨2, ![64, 1]⟩ .f32) (pb : FVec Ideal ⟨1, ![1]⟩ .f32)
    (p : Fin R) (q : Fin 1) : head h pw pb (ix2 p q) = headAt h pw pb p := rfl

/-- The dense stage is row-local: if the rows `p'` of small operands are the rows `p` of large ones, so are the results'. -/
theorem combineAt_rows {R' : Nat} (t0 t1 t2 : FVec Ideal ⟨2, ![R, 64]⟩ .f32) (s0 s1 s2 : FVec Ideal ⟨2, ![R', 64]⟩ .f32)
    (w : FVec Ideal ⟨3, ![3, 64, 64]⟩ .f32) (b : FVec Ideal ⟨1, ![64]⟩ .f32) (p : Fin R) (p' : Fin R')
    (h0 : ∀ k : Fin 64, s0 (ix2 p' k) = t0 (ix2 p k)) (h1 : ∀ k : Fin 64, s1 (ix2 p' k) = t1 (ix2 p k))
    (h2 : ∀ k : Fin 64, s2 (ix2 p' k) = t2 (ix2 p k)) (q : Fin 64) :
    combineAt s0 s1 s2 w b p' q = combineAt t0 t1 t2 w b p q := by
  unfold combineAt
  simp only [h0, h1, h2]

/-- The head is row-local. -/
theorem headAt_rows {R' : Nat} (h : FVec Ideal ⟨2, ![R, 64]⟩ .f32) (g : FVec Ideal ⟨2, ![R', 64]⟩ .f32)
    (pw : FVec Ideal ⟨2, ![64, 1]⟩ .f32) (pb : FVec Ideal ⟨1, ![1]⟩ .f32) (p : Fin R) (p' : Fin R')
    (h0 : ∀ k : Fin 64, g (ix2 p' k) = h (ix2 p k)) : headAt g pw pb p' = headAt h pw pb p := by
  unfold headAt
  simp only [h0]

/-- A block against the whole: the dense stage of small operands at `j` is the dense stage of large operands at `i`, when the
    two indices name the same feature and row `j 0` of each small row-indexed operand is row `i 0` of the large one. -/
theorem combine_block {R' : Nat} (t0 t1 t2 : FVec Ideal ⟨2, ![R, 64]⟩ .f32) (s0 s1 s2 : FVec Ideal ⟨2, ![R', 64]⟩ .f32)
    (w w' : FVec Ideal ⟨3, ![3, 64, 64]⟩ .f32) (b b' : FVec Ideal ⟨1, ![64]⟩ .f32)
    (i : (⟨2, ![R, 64]⟩ : Shape).Idx) (j : (⟨2, ![R', 64]⟩ : Shape).Idx) (hq : (i 1).val = (j 1).val)
    (h0 : ∀ k : Fin 64, s0 (ix2 (j 0) k) = t0 (ix2 (i 0) k)) (h1 : ∀ k : Fin 64, s1 (ix2 (j 0) k) = t1 (ix2 (i 0) k))
    (h2 : ∀ k : Fin 64, s2 (ix2 (j 0) k) = t2 (ix2 (i 0) k)) (hw : w' = w) (hb : b' = b) :
    combine s0 s1 s2 w' b' j = combine t0 t1 t2 w b i := by
  subst hw hb
  have e : (j 1 : Fin 64) = (i 1 : Fin 64) := Fin.ext hq.symm
  show combineAt s0 s1 s2 w' b' (j 0) (j 1) = combineAt t0 t1 t2 w' b' (i 0) (i 1)
  rw [e]
  exact combineAt_rows t0 t1 t2 s0 s1 s2 w' b' (i 0) (j 0) h0 h1 h2 (i 1)

/-- The same for the head. -/
theorem head_block {R' : Nat} (h : FVec Ideal ⟨2, ![R, 64]⟩ .f32) (g : FVec Ideal ⟨2, ![R', 64]⟩ .f32)
    (pw pw' : FVec Ideal ⟨2, ![64, 1]⟩ .f32) (pb pb' : FVec Ideal ⟨1, ![1]⟩ .f32)
    (i : (⟨2, ![R, 1]⟩ : Shape).Idx) (j : (⟨2, ![R', 1]⟩ : Shape).Idx)
    (h0 : ∀ k : Fin 64, g (ix2 (j 0) k) = h (ix2 (i 0) k)) (hw : pw' = pw) (hb : pb' = pb) :
    head g pw' pb' j = head h pw pb i := by
  subst hw hb
  exact headAt_rows h g pw' pb' (i 0) (j 0) h0

end Cheb

end
-- ==== Proof.Chain.lean ====
/-
  The graph side of the network, shared by the two programs, as functions of whole arrays.

  With `src` and `dst` the edge lists (800000 edges over 50000 nodes):
    * `normCol dst`: the column of 50000 numbers  max(1, deg)^(-1/2), deg the in-degree (a scatter-add of ones by `dst`);
    * `agg x src dst n`:  n * scatter-add by `dst` of the rows of (x * n) gathered by `src` (a negative row number wraps
      around by 50000), the normalised adjacency applied to x;
    * the Chebyshev terms  term1 = -agg x,  term2 = -2 * agg(term1) - x;
    * layer l's weights and bias: slice l of the stacked arrays with the leading unit axis dropped.
  Each is spelt exactly as the host operations of the printed programs spell it, so that a stretch of host operations read
  back is one of these functions of the buffers it started from.
-/
import proofs.«145478_j84121229460235_1_alg».proof.Proof.Gen.KernelIdeal
import proofs.«145478_j84121229460235_1_alg».proof.Proof.Spec

noncomputable section

namespace Cert.KernelIdeal.Chain

open Idealize.ShloMosaic Cert.KernelIdeal Cert.KernelIdeal.Gen

variable {F : FTy → Type} [FloatOps F]

/-- max(1, in-degree)^(-1/2), as a column. -/
def normCol (dst : IVec S800000 32) : FVec F S50000x1 .f32 :=
  broadcastInDim S50000x1 ![0] bcast_S50000_S50000x1_0
    (Host.powf
      (maximumf (broadcastInDim S50000 ![] bcast_S_S50000 (id (constant (F := F) S_ .f32 0x3F800000#32)))
        (Host.scatterAdd scatter_S50000_S800000x1_S800000_n_0_0_1
          (broadcastInDim S50000 ![] bcast_S_S50000 (constant (F := F) S_ .f32 0x00000000#32))
          (broadcastInDim S800000x1 ![0] bcast_S800000_S800000x1_0 dst)
          (broadcastInDim S800000 ![] bcast_S_S800000 (constant (F := F) S_ .f32 0x3F800000#32))))
      (broadcastInDim S50000 ![] bcast_S_S50000 (constant (F := F) S_ .f32 0xBF000000#32)))

/-- The source row of every edge, a negative number wrapped around by 50000, as a column of row numbers. -/
def srcRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The normalised adjacency applied to `x`. -/
def agg (x : FVec F S50000x64 .f32) (src dst : IVec S800000 32) (n : FVec F S50000x1 .f32) : FVec F S50000x64 .f32 :=
  mulf
    (Host.scatterAdd scatter_S50000x64_S800000x1_S800000x64_1_0_0_1
      (broadcastInDim S50000x64 ![] bcast_S_S50000x64 (constant (F := F) S_ .f32 0x00000000#32))
      (broadcastInDim S800000x1 ![0] bcast_S800000_S800000x1_0 dst)
      (Host.gather gather_S50000x64_S800000x1_S800000x64_1_0_n_n_0_1_164
        (mulf x (broadcastInDim S50000x64 ![0, 1] bcast_S50000x1_S50000x64_0_1 n)) (srcRows src)))
    (broadcastInDim S50000x64 ![0, 1] bcast_S50000x1_S50000x64_0_1 n)

/-- The first Chebyshev term past the input. -/
def term1 (x : FVec F S50000x64 .f32) (src dst : IVec S800000 32) (n : FVec F S50000x1 .f32) : FVec F S50000x64 .f32 :=
  Host.negf (agg x src dst n)

/-- The second. -/
def term2 (x : FVec F S50000x64 .f32) (src dst : IVec S800000 32) (n : FVec F S50000x1 .f32) : FVec F S50000x64 .f32 :=
  subf (mulf (broadcastInDim S50000x64 ![] bcast_S_S50000x64 (constant (F := F) S_ .f32 0xC0000000#32)) (agg (term1 x src dst n) src dst n)) x

/-- The first layer's three weight matrices. -/
def weights0 (w : FVec F S2x3x64x64 .f32) : FVec F S3x64x64 .f32 :=
  shapeCast S3x64x64 (extractStridedSlice S1x3x64x64 ![0, 0, 0, 0] w slices_S2x3x64x64_S1x3x64x64_0_0_0_0) shapeCasts_S1x3x64x64_S3x64x64

/-- The second layer's. -/
def weights1 (w : FVec F S2x3x64x64 .f32) : FVec F S3x64x64 .f32 :=
  shapeCast S3x64x64 (extractStridedSlice S1x3x64x64 ![1, 0, 0, 0] w slices_S2x3x64x64_S1x3x64x64_1_0_0_0) shapeCasts_S1x3x64x64_S3x64x64

/-- The first layer's biases. -/
def bias0 (b : FVec F S2x64 .f32) : FVec F S64 .f32 :=
  shapeCast S64 (extractStridedSlice S1x64 ![0, 0] b slices_S2x64_S1x64_0_0) shapeCasts_S1x64_S64

/-- The second layer's. -/
def bias1 (b : FVec F S2x64 .f32) : FVec F S64 .f32 :=
  shapeCast S64 (extractStridedSlice S1x64 ![1, 0] b slices_S2x64_S1x64_1_0) shapeCasts_S1x64_S64

/-- One layer over the extended reals: the dense stage of the input and its two Chebyshev terms. -/
def layer (x : FVec Ideal S50000x64 .f32) (src dst : IVec S800000 32) (n : FVec Ideal S50000x1 .f32)
    (w : FVec Ideal S3x64x64 .f32) (b : FVec Ideal S64 .f32) : FVec Ideal S50000x64 .f32 :=
  Cheb.combine (R := 50000) x (term1 x src dst n) (term2 x src dst n) w b

/-- The network over the extended reals: two layers, then the head. -/
def net (x : FVec Ideal S50000x64 .f32) (src dst : IVec S800000 32) (w : FVec Ideal S2x3x64x64 .f32) (b : FVec Ideal S2x64 .f32)
    (pw : FVec Ideal S64x1 .f32) (pb : FVec Ideal S1 .f32) : FVec Ideal S50000x1 .f32 :=
  Cheb.head (R := 50000)
    (layer (layer x src dst (normCol dst) (weights0 w) (bias0 b)) src dst (normCol dst) (weights1 w) (bias1 b)) pw pb

end Cert.KernelIdeal.Chain

end
-- ==== Proof.Entry0.lean ====
/-
  The buffers the first dense stage is entered with, read back through the three stretches of host operations before it:
  the argument arrays are as launched (no host operation writes one), and the normalisation column, the first layer's
  weights and its biases are their functions of the arguments.
-/
import proofs.«145478_j84121229460235_1_alg».proof.Proof.Gen.KernelIdeal.Frame
import proofs.«145478_j84121229460235_1_alg».proof.Proof.Chain

set_option maxRecDepth 16384
-- one read at a time: each walks a stretch of some fifty host operations; stated for any float values, the host
-- operations staying opaque
set_option Elab.async false

noncomputable section

namespace Cert.KernelIdeal.Entry0

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

variable (m : (ℓ : Loc nD τ sig) → Buf (Elt F) ℓ) (ρ : Dev nD → PrngReg) (c : Dev nD)

set_option maxRecDepth 8192 in
set_option maxHeartbeats 8000000 in
theorem w3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl

set_option maxRecDepth 8192 in
set_option maxHeartbeats 8000000 in
theorem w3_arg1 : W3 m ρ c (Proc.devRef .tc main_arg1) = (m ((c.tc : Thread nD τ).loc main_arg1)) := by
  show StableHlo.after hostOps0_2 (StableHlo.after hostOps0_1 (StableHlo.after hostOps0 (W0 m ρ c))) (Proc.devRef .tc main_arg1) = _
  after_results_simp <;> rfl

set_option maxRecDepth 8192 in
set_option maxHeartbeats 8000000 in
theorem w3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp <;> rfl

set_option maxRecDepth 8192 in
set_option maxHeartbeats 8000000 in
theorem w3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp <;> rfl

set_option maxRecDepth 8192 in
set_option maxHeartbeats 8000000 in
theorem w3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp <;> rfl

set_option maxRecDepth 8192 in
set_option maxHeartbeats 8000000 in
theorem w3_norm : W3 m ρ c (Proc.devRef .tc main_v7) = normCol (F := F) (m ((c.tc : Thread nD τ).loc main_arg2)) := by
  show StableHlo.after hostOps0_2 (StableHlo.after hostOps0_1 (StableHlo.after hostOps0 (W0 m ρ c))) (Proc.devRef .tc main_v7) = _
  after_results_simp <;> rfl

set_option maxRecDepth 8192 in
set_option maxHeartbeats 8000000 in
theorem w3_w : W3 m ρ c (Proc.devRef .tc main_v9) = weights0 (F := F) (m ((c.tc : Thread nD τ).loc main_arg3)) := by
  show StableHlo.after hostOps0_2 (StableHlo.after hostOps0_1 (StableHlo.after hostOps0 (W0 m ρ c))) (Proc.devRef .tc main_v9) = _
  after_results_simp <;> rfl

set_option maxRecDepth 8192 in
set_option maxHeartbeats 8000000 in
theorem w3_b : W3 m ρ c (Proc.devRef .tc main_v11) = bias0 (F := F) (m ((c.tc : Thread nD τ).loc main_arg4)) := by
  show StableHlo.after hostOps0_2 (StableHlo.after hostOps0_1 (StableHlo.after hostOps0 (W0 m ρ c))) (Proc.devRef .tc main_v11) = _
  after_results_simp <;> rfl

end Cert.KernelIdeal.Entry0

end
-- ==== Proof.Entry0T1.lean ====
/-
  The first Chebyshev term of the input features, as the first dense stage finds it: the host operations before the region
  read back to the launch memory.
-/
import proofs.«145478_j84121229460235_1_alg».proof.Proof.Gen.KernelIdeal.Frame
import proofs.«145478_j84121229460235_1_alg».proof.Proof.Chain

set_option maxRecDepth 16384
-- one read at a time: each walks a stretch of some fifty host operations; stated for any float values, the host
-- operations staying opaque
set_option Elab.async false

noncomputable section

namespace Cert.KernelIdeal.Entry0T1

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

variable (m : (ℓ : Loc nD τ sig) → Buf (Elt F) ℓ) (ρ : Dev nD → PrngReg) (c : Dev nD)

set_option maxRecDepth 8192 in
set_option maxHeartbeats 8000000 in
theorem w3_t1 : W3 m ρ c (Proc.devRef .tc main_v26) = term1 (F := F) (m ((c.tc : Thread nD τ).loc main_arg0)) (m ((c.tc : Thread nD τ).loc main_arg1)) (m ((c.tc : Thread nD τ).loc main_arg2)) (normCol (m ((c.tc : Thread nD τ).loc main_arg2))) := by
  show StableHlo.after hostOps0_2 (StableHlo.after hostOps0_1 (StableHlo.after hostOps0 (W0 m ρ c))) (Proc.devRef .tc main_v26) = _
  after_results_simp <;> rfl

end Cert.KernelIdeal.Entry0T1

end
-- ==== Proof.Entry0T2.lean ====
/-
  The second Chebyshev term of the input features, as the first dense stage finds it: the host operations before the region
  read back to the launch memory.
-/
import proofs.«145478_j84121229460235_1_alg».proof.Proof.Gen.KernelIdeal.Frame
import proofs.«145478_j84121229460235_1_alg».proof.Proof.Chain

set_option maxRecDepth 16384
-- one read at a time: each walks a stretch of some fifty host operations; stated for any float values, the host
-- operations staying opaque
set_option Elab.async false

noncomputable section

namespace Cert.KernelIdeal.Entry0T2

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

variable (m : (ℓ : Loc nD τ sig) → Buf (Elt F) ℓ) (ρ : Dev nD → PrngReg) (c : Dev nD)

set_option maxRecDepth 8192 in
set_option maxHeartbeats 8000000 in
theorem w3_t2 : W3 m ρ c (Proc.devRef .tc main_v43) = term2 (F := F) (m ((c.tc : Thread nD τ).loc main_arg0)) (m ((c.tc : Thread nD τ).loc main_arg1)) (m ((c.tc : Thread nD τ).loc main_arg2)) (normCol (m ((c.tc : Thread nD τ).loc main_arg2))) := by
  show StableHlo.after hostOps0_2 (StableHlo.after hostOps0_1 (StableHlo.after hostOps0 (W0 m ρ c))) (Proc.devRef .tc main_v43) = _
  after_results_simp <;> rfl

end Cert.KernelIdeal.Entry0T2

end
-- ==== Proof.Entry1.lean ====
/-
  The buffers the second dense stage is entered with, read back through the stretch of host operations between the two
  dense stages to the contents the first one left: the first layer's output is untouched, its two Chebyshev terms and the
  second layer's weights and biases are their functions of those contents.
-/
import proofs.«145478_j84121229460235_1_alg».proof.Proof.Gen.KernelIdeal.Frame
import proofs.«145478_j84121229460235_1_alg».proof.Proof.Chain

set_option maxRecDepth 16384
-- one read at a time: each walks a stretch of some fifty host operations; stated for any float values, the host
-- operations staying opaque
set_option Elab.async false

noncomputable section

namespace Cert.KernelIdeal.Entry1

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

variable (m : (ℓ : Loc nD τ sig) → Buf (Elt F) ℓ) (ρ : Dev nD → PrngReg) (c : Dev nD)

set_option maxRecDepth 8192 in
set_option maxHeartbeats 8000000 in
theorem w5_in : W5 m ρ c (Proc.devRef .tc main_v44) = (W4 m ρ c (Proc.devRef .tc main_v44)) := by
  show StableHlo.after hostOps1 (W4 m ρ c) (Proc.devRef .tc main_v44) = _
  after_results_simp <;> rfl

set_option maxRecDepth 8192 in
set_option maxHeartbeats 8000000 in
theorem w5_w : W5 m ρ c (Proc.devRef .tc main_v46) = weights1 (F := F) (W4 m ρ c (Proc.devRef .tc main_arg3)) := by
  show StableHlo.after hostOps1 (W4 m ρ c) (Proc.devRef .tc main_v46) = _
  after_results_simp <;> rfl

set_option maxRecDepth 8192 in
set_option maxHeartbeats 8000000 in
theorem w5_b : W5 m ρ c (Proc.devRef .tc main_v48) = bias1 (F := F) (W4 m ρ c (Proc.devRef .tc main_arg4)) := by
  show StableHlo.after hostOps1 (W4 m ρ c) (Proc.devRef .tc main_v48) = _
  after_results_simp <;> rfl

set_option maxRecDepth 8192 in
set_option maxHeartbeats 8000000 in
theorem w5_t1 : W5 m ρ c (Proc.devRef .tc main_v63) = term1 (F := F) (W4 m ρ c (Proc.devRef .tc main_v44)) (W4 m ρ c (Proc.devRef .tc main_arg1)) (W4 m ρ c (Proc.devRef .tc main_arg2)) (W4 m ρ c (Proc.devRef .tc main_v7)) := by
  show StableHlo.after hostOps1 (W4 m ρ c) (Proc.devRef .tc main_v63) = _
  after_results_simp <;> rfl

set_option maxRecDepth 8192 in
set_option maxHeartbeats 8000000 in
theorem w5_t2 : W5 m ρ c (Proc.devRef .tc main_v80) = term2 (F := F) (W4 m ρ c (Proc.devRef .tc main_v44)) (W4 m ρ c (Proc.devRef .tc main_arg1)) (W4 m ρ c (Proc.devRef .tc main_arg2)) (W4 m ρ c (Proc.devRef .tc main_v7)) := by
  show StableHlo.after hostOps1 (W4 m ρ c) (Proc.devRef .tc main_v80) = _
  after_results_simp <;> rfl

end Cert.KernelIdeal.Entry1

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.Blocks.lean ====
/-
  What each kernel body computes on one block of rows, entry by entry, over the extended reals.

  A block of the dense stage holds 5000 rows.  The body multiplies each of the three 5000 x 64 blocks of Chebyshev terms
  by its 64 x 64 weight slab (a slab is one leading index of the [3, 64, 64] weight array, loaded as a [1, 64, 64] piece
  and viewed as a matrix), adds the three products in order, adds the bias along every row and takes the maximum with
  zero.  Rounding the operands to a shorter float format before the products changes nothing over the extended reals,
  and a product into a zero accumulator is the plain sum over the 64 contracted features.  So entry (p, q) of the
  stored block is the dense stage's formula on the loaded blocks.  The head's body is the same with one product and
  no maximum.
-/
import proofs.«145478_j84121229460235_1_alg».proof.Proof.Gen.KernelIdeal.Skeleton
import proofs.«145478_j84121229460235_1_alg».proof.Proof.Spec
import proofs.«145478_j84121229460235_1_alg».proof.Proof.LibPlainMatmul
import Idealize.ShloMosaic.Lib.Pipeline.Value
import Idealize.ShloMosaic.Lib.ValueIdx

noncomputable section

namespace Cert.KernelIdeal.Blocks

open Idealize.ShloMosaic Idealize.ShloMosaic.ValueIdx Cert.KernelIdeal Cert.KernelIdeal.Gen

/-- A 5000 x 64 by 64 x 64 product into zero, at (p, q): the sum over the contracted feature. -/
theorem mm64 {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  PlainMatmul.matmul_zero_apply (M := 5000) (K := 64) (N := 64) dot_S5000x64_S64x64_S5000x64_1_0_0_1_n_n.wf none l r p q

/-- A 5000 x 64 by 64 x 1 product into zero, at (p, q). -/
theorem mm1 {φ₁ φ₂ : FTy} (l : FVec Ideal S5000x64 φ₁) (r : FVec Ideal S64x1 φ₂) (p : Fin 5000) (q : Fin 1) :
    matmul dot_S5000x64_S64x1_S5000x1_1_0_0_1_n_n none l r (constant S5000x1 .f32 0x00000000#32) (ix2 p q)
      = ∑ k : Fin 64, l (ix2 p k) * r (ix2 k q) :=
  PlainMatmul.matmul_zero_apply (M := 5000) (K := 64) (N := 1) dot_S5000x64_S64x1_S5000x1_1_0_0_1_n_n.wf none l r p q

/-- A [1, 64, 64] piece viewed as a 64 x 64 matrix: entry (k, q) is entry (0, k, q). -/
theorem slab_apply {α : Type} (v : S1x64x64.Idx → α) (k q : Fin 64) :
    shapeCast S64x64 v shapeCasts_S1x64x64_S64x64 (ix2 k q) = v (ix3 (0 : Fin 1) k q) :=
  shapeCast_apply v shapeCasts_S1x64x64_S64x64 (ix2 k q) (ix3 (0 : Fin 1) k q)
    (by rw [Shape.rowMajor_val_three, Shape.rowMajor_val_two]; show (0 * 64 + k.val) * 64 + q.val = k.val * 64 + q.val; omega)

/-- The 64 biases viewed as one row and repeated down the 5000 rows: entry (p, q) is bias q. -/
theorem bias_apply {α : Type} (v : S64.Idx → α) (p : Fin 5000) (q : Fin 64) :
    broadcastTo S5000x64 (shapeCast S1x64 (shapeCast S64 v shapeCasts_S64_S64) shapeCasts_S64_S1x64) broadcasts_S1x64_S5000x64 (ix2 p q)
      = v (ix1 q) := by
  rw [shapeCast_self]
  refine (broadcastTo_apply _ broadcasts_S1x64_S5000x64 (ix2 p q) (ix2 (0 : Fin 1) q) (fun a => ?_)).trans ?_
  · match a with
    | ⟨0, _⟩ => show (0 : Nat) = if (1 : Nat) = 1 then 0 else _; rw [if_pos rfl]
    | ⟨1, _⟩ => show q.val = if (64 : Nat) = 1 then 0 else q.val; rw [if_neg (by decide)]
  · exact shapeCast_apply v shapeCasts_S64_S1x64 (ix2 (0 : Fin 1) q) (ix1 q)
      (by rw [Shape.rowMajor_val_one, Shape.rowMajor_val_two]; show q.val = 0 * 64 + q.val; omega)

/-- The head's one bias viewed as a 1 x 1 array and repeated down the 5000 rows. -/
theorem bias1_apply {α : Type} (v : S1.Idx → α) (p : Fin 5000) (q : Fin 1) :
    broadcastTo S5000x1 (shapeCast S1x1 v shapeCasts_S1_S1x1) broadcasts_S1x1_S5000x1 (ix2 p q) = v (ix1 (0 : Fin 1)) := by
  refine (broadcastTo_apply _ broadcasts_S1x1_S5000x1 (ix2 p q) (ix2 (0 : Fin 1) (0 : Fin 1)) (fun a => ?_)).trans ?_
  · match a with
    | ⟨0, _⟩ => show (0 : Nat) = if (1 : Nat) = 1 then 0 else _; rw [if_pos rfl]
    | ⟨1, _⟩ => show (0 : Nat) = if (1 : Nat) = 1 then 0 else _; rw [if_pos rfl]
  · exact shapeCast_apply v shapeCasts_S1_S1x1 (ix2 (0 : Fin 1) (0 : Fin 1)) (ix1 (0 : Fin 1))
      (by rw [Shape.rowMajor_val_one, Shape.rowMajor_val_two]; show (0 : Nat) = 0 * 1 + 0; omega)

/-- The first dense stage's stored block at (p, q), from the loaded blocks. -/
theorem pay0_apply (v0 v2 v5 : Vec Ideal S5000x64 .f32) (v8 v11 v14 : Vec Ideal S1x64x64 .f32) (v22 : Vec Ideal S64 .f32)
    (p : Fin 5000) (q : Fin 64) :
    k0_pay1 v0 v2 v5 v8 v11 v14 v22 (ix2 p q)
      = max ((((∑ k : Fin 64, v0 (ix2 p k) * v8 (ix3 (0 : Fin 1) k q)) + (∑ k : Fin 64, v2 (ix2 p k) * v11 (ix3 (0 : Fin 1) k q)))
          + (∑ k : Fin 64, v5 (ix2 p k) * v14 (ix3 (0 : Fin 1) k q))) + v22 (ix1 q)) (Ideal.ofBits .f32 0x00000000#32) := by
  unfold k0_pay1
  rw [maximumf_apply, addf_apply, addf_apply, addf_apply, mm64, mm64, mm64, bias_apply, shapeCast_self, shapeCast_self]
  simp only [truncf_apply, slab_apply]
  rfl

/-- The second dense stage's stored block at (p, q). -/
theorem pay1_apply (v0 v3 v6 : Vec Ideal S5000x64 .f32) (v9 v12 v15 : Vec Ideal S1x64x64 .f32) (v23 : Vec Ideal S64 .f32)
    (p : Fin 5000) (q : Fin 64) :
    k1_pay1 v0 v3 v6 v9 v12 v15 v23 (ix2 p q)
      = max ((((∑ k : Fin 64, v0 (ix2 p k) * v9 (ix3 (0 : Fin 1) k q)) + (∑ k : Fin 64, v3 (ix2 p k) * v12 (ix3 (0 : Fin 1) k q)))
          + (∑ k : Fin 64, v6 (ix2 p k) * v15 (ix3 (0 : Fin 1) k q))) + v23 (ix1 q)) (Ideal.ofBits .f32 0x00000000#32) := by
  unfold k1_pay1
  rw [maximumf_apply, addf_apply, addf_apply, addf_apply, mm64, mm64, mm64, bias_apply, shapeCast_self, shapeCast_self, shapeCast_self]
  simp only [truncf_apply, slab_apply]
  rfl

/-- The head's stored block at (p, q). -/
theorem pay2_apply (v0 : Vec Ideal S5000x64 .f32) (v3 : Vec Ideal S64x1 .f32) (v6 : Vec Ideal S1 .f32) (p : Fin 5000) (q : Fin 1) :
    k2_pay1 v0 v3 v6 (ix2 p q) = (∑ k : Fin 64, v0 (ix2 p k) * v3 (ix2 k q)) + v6 (ix1 (0 : Fin 1)) := by
  unfold k2_pay1
  rw [addf_apply, mm1, bias1_apply, shapeCast_self]
  simp only [truncf_apply]

end Cert.KernelIdeal.Blocks

end
-- ==== Proof.Region0.lean ====
/-
  The first dense stage as a whole: after the ten grid points have each written back their block of 5000 rows, the
  result array is the layer's dense stage of the five arrays the region was entered with.

  Point t reads rows 5000 t .. 5000 t + 4999 of the three Chebyshev terms and the whole weight and bias arrays, and writes
  rows 5000 t .. 5000 t + 4999 of the result.  The dense stage is row-local, so what point t writes back is block t of the
  dense stage of the whole arrays; row r lies in the block of point r / 5000, so the ten blocks cover the array.
-/
import proofs.«145478_j84121229460235_1_alg».proof.Proof.Gen.KernelIdeal.Frame
import proofs.«145478_j84121229460235_1_alg».proof.Proof.Blocks

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero2 : (![0, 0] : Fin 2 → Nat) = fun _ => 0 := funext fun a => by fin_cases a <;> rfl
theorem zero1 : (![0] : Fin 1 → Nat) = fun _ => 0 := funext fun a => by fin_cases a <;> rfl

/-- A weight slab loaded as a [1, 64, 64] piece at leading index `o`: entry (0, k, q) of the piece is entry (o, k, q). -/
theorem ld_slab {α : Type} (x : S3x64x64.Idx → α) (o : Fin 3) (off : Fin 3 → Nat) (hoff : off = ![o.val, 0, 0])
    (inb : ∀ a, off a + S1x64x64.size a ≤ S3x64x64.size a) (k q : Fin 64) :
    (fun y => x ((Rect.unit (s := S3x64x64) off S1x64x64.size inb).idx y)) (ix3 (0 : Fin 1) k q) = x (ix3 o k q) := by
  subst hoff
  refine congrArg x (funext fun a => Fin.ext ?_)
  match a with
  | ⟨0, _⟩ => show o.val + 1 * 0 = o.val; omega
  | ⟨1, _⟩ => show 0 + 1 * k.val = k.val; omega
  | ⟨2, _⟩ => show 0 + 1 * q.val = q.val; omega

/-- What the body leaves in the result's staging buffer is the dense stage of the five loaded blocks. -/
theorem out_eq (x0 x1 x2 : Vec Ideal S5000x64 .f32) (x3 : Vec Ideal S3x64x64 .f32) (x4 : Vec Ideal S64 .f32) :
    out0_5 x0 x1 x2 x3 x4 = Cheb.combine (R := 5000) x0 x1 x2 x3 x4 := by
  unfold out0_5
  rw [View.canon_unit_zero zero2]
  simp only [View.ld_unit_zero (S := S5000x64) zero2, View.ld_unit_zero (S := S64) zero1]
  funext j
  obtain ⟨p, q, rfl⟩ : ∃ (p : Fin 5000) (q : Fin 64), j = ix2 p q := ⟨j 0, j 1, eq_ix2 j⟩
  rw [Blocks.pay0_apply, Cheb.combine_ix2]
  unfold Cheb.combineAt
  have e0 : ∀ k : Fin 64, View.ld x3 r0_1 (ix3 (0 : Fin 1) k q) = x3 (ix3 (0 : Fin 3) k q) :=
    fun k => ld_slab x3 0 _ rfl _ k q
  have e1 : ∀ k : Fin 64, View.ld x3 r0_2 (ix3 (0 : Fin 1) k q) = x3 (ix3 (1 : Fin 3) k q) :=
    fun k => ld_slab x3 1 _ rfl _ k q
  have e2 : ∀ k : Fin 64, View.ld x3 r0_3 (ix3 (0 : Fin 1) k q) = x3 (ix3 (2 : Fin 3) k q) :=
    fun k => ld_slab x3 2 _ rfl _ k q
  simp only [e0, e1, e2]

variable (V : (c : Dev nD) → (b : Ref sig .tc) → Buf (Elt Ideal) ((c : Thread nD τ).loc b))

/-- The printed index maps over the grid: the row-indexed windows and the result are at block row t, column block 0; the
    weights and the bias are at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the dense stage of the arrays the region was entered with. -/
theorem flushed_eq (c : Dev nD) (t : Fin cfg0.N) :
    (dat0 (F := Ideal) V c).flushed 5 t = ((cfg0.win 5).blk t).view.read (Elt Ideal)
      (Cheb.combine (R := 50000) (V c main_arg0) (V c main_v26) (V c main_v43) (V c main_v9) (V c main_v11)) := by
  show (cfg0.win 5).cut (grid0.coords t) ((dat0 (F := Ideal) V c).after 5 t) = _
  rw [after0_5, out_eq]
  obtain ⟨a00, a01, a10, a11, a20, a21, a30, a31, a32, a40, a50, a51⟩ := idx_facts t
  have e3 : iblk0 V c 3 t = V c main_v9 := by
    funext y
    show V c main_v9 (((cfg0.win 3).blk t).view.emb y) = V c main_v9 y
    refine congrArg (V c main_v9) (funext fun a => Fin.ext ?_)
    match a with
    | ⟨0, _⟩ => show win0_3.index t (0 : Fin 3) * 3 + 1 * (y 0).val = (y 0).val; omega
    | ⟨1, _⟩ => show win0_3.index t (1 : Fin 3) * 64 + 1 * (y 1).val = (y 1).val; omega
    | ⟨2, _⟩ => show win0_3.index t (2 : Fin 3) * 64 + 1 * (y 2).val = (y 2).val; omega
  have e4 : iblk0 V c 4 t = V c main_v11 := by
    funext y
    show V c main_v11 (((cfg0.win 4).blk t).view.emb y) = V c main_v11 y
    refine congrArg (V c main_v11) (funext fun a => Fin.ext ?_)
    match a with
    | ⟨0, _⟩ => show win0_4.index t (0 : Fin 1) * 64 + 1 * (y 0).val = (y 0).val; omega
  funext j
  show Cheb.combine (R := 5000) (iblk0 V c 0 t) (iblk0 V c 1 t) (iblk0 V c 2 t) (iblk0 V c 3 t) (iblk0 V c 4 t) j
    = Cheb.combine (R := 50000) (V c main_arg0) (V c main_v26) (V c main_v43) (V c main_v9) (V c main_v11) (((cfg0.win 5).blk t).view.emb j)
  refine Cheb.combine_block (R := 50000) (R' := 5000) (V c main_arg0) (V c main_v26) (V c main_v43)
    (iblk0 V c 0 t) (iblk0 V c 1 t) (iblk0 V c 2 t) (V c main_v9) (iblk0 V c 3 t) (V c main_v11) (iblk0 V c 4 t)
    (((cfg0.win 5).blk t).view.emb j) j ?_ (fun k => ?_) (fun k => ?_) (fun k => ?_) e3 e4
  · show win0_5.index t (1 : Fin 2) * 64 + 1 * (j 1).val = (j 1).val; omega
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  · show V c main_v26 (((cfg0.win 1).blk t).view.emb (ix2 (j 0) k)) = V c main_v26 (ix2 ((((cfg0.win 5).blk t).view.emb j) 0) k)
    refine congrArg (V c main_v26) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * k.val = k.val; omega
  · show V c main_v43 (((cfg0.win 2).blk t).view.emb (ix2 (j 0) k)) = V c main_v43 (ix2 ((((cfg0.win 5).blk t).view.emb j) 0) k)
    refine congrArg (V c main_v43) (funext fun a => Fin.ext ?_)
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 64 + 1 * k.val = k.val; omega

/-- An index of the result array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v44).slice (win0_5.rect t)).set ↔ _
  rw [View.set_slice_whole, Rect.mem_set_unit]
  exact Iff.rfl

/-- Row r is in the block of point r / 5000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < cfg0.N := by show (i 0).val / 5000 < grid0.N; rw [N_0]; omega
  refine ⟨⟨(i 0).val / 5000, hN⟩, flush0_5 _, ?_⟩
  obtain ⟨-, -, -, -, -, -, -, -, -, -, a50, a51⟩ := idx_facts ⟨(i 0).val / 5000, hN⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [a50]; show (i 0).val / 5000 * 5000 ≤ (i 0).val ∧ (i 0).val < (i 0).val / 5000 * 5000 + 5000; omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    rw [a51]; omega

/-- The result array after the region: the dense stage of the arrays it was entered with. -/
theorem arr (c : Dev nD) : (dat0 (F := Ideal) V c).arrAt 5 cfg0.N
    = Cheb.combine (R := 50000) (V c main_arg0) (V c main_v26) (V c main_v43) (V c main_v9) (V c main_v11) :=
  (dat0 (F := Ideal) V c).arrAt_eq_of_cover 5 _ (fun t _ => flushed_eq V c t) cover

end Cert.KernelIdeal.Region0

end
-- ==== Proof.Region1.lean ====
/-
  The second dense stage as a whole: after the ten grid points have each written back their block of 5000 rows, the
  result array is the layer's dense stage of the five arrays the region was entered with.

  Point t reads rows 5000 t .. 5000 t + 4999 of the three Chebyshev terms and the whole weight and bias arrays, and writes
  rows 5000 t .. 5000 t + 4999 of the result.  The dense stage is row-local, so what point t writes back is block t of the
  dense stage of the whole arrays; row r lies in the block of point r / 5000, so the ten blocks cover the array.
-/
import proofs.«145478_j84121229460235_1_alg».proof.Proof.Gen.KernelIdeal.Frame
import proofs.«145478_j84121229460235_1_alg».proof.Proof.Blocks

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero2 : (![0, 0] : Fin 2 → Nat) = fun _ => 0 := funext fun a => by fin_cases a <;> rfl
theorem zero1 : (![0] : Fin 1 → Nat) = fun _ => 0 := funext fun a => by fin_cases a <;> rfl

/-- A weight slab loaded as a [1, 64, 64] piece at leading index `o`: entry (0, k, q) of the piece is entry (o, k, q). -/
theorem ld_slab {α : Type} (x : S3x64x64.Idx → α) (o : Fin 3) (off : Fin 3 → Nat) (hoff : off = ![o.val, 0, 0])
    (inb : ∀ a, off a + S1x64x64.size a ≤ S3x64x64.size a) (k q : Fin 64) :
    (fun y => x ((Rect.unit (s := S3x64x64) off S1x64x64.size inb).idx y)) (ix3 (0 : Fin 1) k q) = x (ix3 o k q) := by
  subst hoff
  refine congrArg x (funext fun a => Fin.ext ?_)
  match a with
  | ⟨0, _⟩ => show o.val + 1 * 0 = o.val; omega
  | ⟨1, _⟩ => show 0 + 1 * k.val = k.val; omega
  | ⟨2, _⟩ => show 0 + 1 * q.val = q.val; omega

/-- What the body leaves in the result's staging buffer is the dense stage of the five loaded blocks. -/
theorem out_eq (x0 x1 x2 : Vec Ideal S5000x64 .f32) (x3 : Vec Ideal S3x64x64 .f32) (x4 : Vec Ideal S64 .f32) :
    out1_5 x0 x1 x2 x3 x4 = Cheb.combine (R := 5000) x0 x1 x2 x3 x4 := by
  unfold out1_5
  rw [View.canon_unit_zero zero2]
  simp only [View.ld_unit_zero (S := S5000x64) zero2, View.ld_unit_zero (S := S64) zero1]
  funext j
  obtain ⟨p, q, rfl⟩ : ∃ (p : Fin 5000) (q : Fin 64), j = ix2 p q := ⟨j 0, j 1, eq_ix2 j⟩
  rw [Blocks.pay1_apply, Cheb.combine_ix2]
  unfold Cheb.combineAt
  have e0 : ∀ k : Fin 64, View.ld x3 r1_1 (ix3 (0 : Fin 1) k q) = x3 (ix3 (0 : Fin 3) k q) :=
    fun k => ld_slab x3 0 _ rfl _ k q
  have e1 : ∀ k : Fin 64, View.ld x3 r1_2 (ix3 (0 : Fin 1) k q) = x3 (ix3 (1 : Fin 3) k q) :=
    fun k => ld_slab x3 1 _ rfl _ k q
  have e2 : ∀ k : Fin 64, View.ld x3 r1_3 (ix3 (0 : Fin 1) k q) = x3 (ix3 (2 : Fin 3) k q) :=
    fun k => ld_slab x3 2 _ rfl _ k q
  simp only [e0, e1, e2]

variable (V : (c : Dev nD) → (b : Ref sig .tc) → Buf (Elt Ideal) ((c : Thread nD τ).loc b))

/-- The printed index maps over the grid: the row-indexed windows and the result are at block row t, column block 0; the
    weights and the bias are at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the dense stage of the arrays the region was entered with. -/
theorem flushed_eq (c : Dev nD) (t : Fin cfg1.N) :
    (dat1 (F := Ideal) V c).flushed 5 t = ((cfg1.win 5).blk t).view.read (Elt Ideal)
      (Cheb.combine (R := 50000) (V c main_v44) (V c main_v63) (V c main_v80) (V c main_v46) (V c main_v48)) := by
  show (cfg1.win 5).cut (grid1.coords t) ((dat1 (F := Ideal) V c).after 5 t) = _
  rw [after1_5, out_eq]
  obtain ⟨a00, a01, a10, a11, a20, a21, a30, a31, a32, a40, a50, a51⟩ := idx_facts t
  have e3 : iblk1 V c 3 t = V c main_v46 := by
    funext y
    show V c main_v46 (((cfg1.win 3).blk t).view.emb y) = V c main_v46 y
    refine congrArg (V c main_v46) (funext fun a => Fin.ext ?_)
    match a with
    | ⟨0, _⟩ => show win1_3.index t (0 : Fin 3) * 3 + 1 * (y 0).val = (y 0).val; omega
    | ⟨1, _⟩ => show win1_3.index t (1 : Fin 3) * 64 + 1 * (y 1).val = (y 1).val; omega
    | ⟨2, _⟩ => show win1_3.index t (2 : Fin 3) * 64 + 1 * (y 2).val = (y 2).val; omega
  have e4 : iblk1 V c 4 t = V c main_v48 := by
    funext y
    show V c main_v48 (((cfg1.win 4).blk t).view.emb y) = V c main_v48 y
    refine congrArg (V c main_v48) (funext fun a => Fin.ext ?_)
    match a with
    | ⟨0, _⟩ => show win1_4.index t (0 : Fin 1) * 64 + 1 * (y 0).val = (y 0).val; omega
  funext j
  show Cheb.combine (R := 5000) (iblk1 V c 0 t) (iblk1 V c 1 t) (iblk1 V c 2 t) (iblk1 V c 3 t) (iblk1 V c 4 t) j
    = Cheb.combine (R := 50000) (V c main_v44) (V c main_v63) (V c main_v80) (V c main_v46) (V c main_v48) (((cfg1.win 5).blk t).view.emb j)
  refine Cheb.combine_block (R := 50000) (R' := 5000) (V c main_v44) (V c main_v63) (V c main_v80)
    (iblk1 V c 0 t) (iblk1 V c 1 t) (iblk1 V c 2 t) (V c main_v46) (iblk1 V c 3 t) (V c main_v48) (iblk1 V c 4 t)
    (((cfg1.win 5).blk t).view.emb j) j ?_ (fun k => ?_) (fun k => ?_) (fun k => ?_) e3 e4
  · show win1_5.index t (1 : Fin 2) * 64 + 1 * (j 1).val = (j 1).val; omega
  · show V c main_v44 (((cfg1.win 0).blk t).view.emb (ix2 (j 0) k)) = V c main_v44 (ix2 ((((cfg1.win 5).blk t).view.emb j) 0) k)
    refine congrArg (V c main_v44) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_v63 (((cfg1.win 1).blk t).view.emb (ix2 (j 0) k)) = V c main_v63 (ix2 ((((cfg1.win 5).blk t).view.emb j) 0) k)
    refine congrArg (V c main_v63) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · show V c main_v80 (((cfg1.win 2).blk t).view.emb (ix2 (j 0) k)) = V c main_v80 (ix2 ((((cfg1.win 5).blk t).view.emb j) 0) k)
    refine congrArg (V c main_v80) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 64 + 1 * k.val = k.val; omega

/-- An index of the result array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v81).slice (win1_5.rect t)).set ↔ _
  rw [View.set_slice_whole, Rect.mem_set_unit]
  exact Iff.rfl

/-- Row r is in the block of point r / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < cfg1.N := by show (i 0).val / 5000 < grid1.N; rw [N_1]; omega
  refine ⟨⟨(i 0).val / 5000, hN⟩, flush1_5 _, ?_⟩
  obtain ⟨-, -, -, -, -, -, -, -, -, -, a50, a51⟩ := idx_facts ⟨(i 0).val / 5000, hN⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [a50]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [a51]; omega

/-- The result array after the region: the dense stage of the arrays it was entered with. -/
theorem arr (c : Dev nD) : (dat1 (F := Ideal) V c).arrAt 5 cfg1.N
    = Cheb.combine (R := 50000) (V c main_v44) (V c main_v63) (V c main_v80) (V c main_v46) (V c main_v48) :=
  (dat1 (F := Ideal) V c).arrAt_eq_of_cover 5 _ (fun t _ => flushed_eq V c t) cover

end Cert.KernelIdeal.Region1

end
-- ==== Proof.Region2.lean ====
/-
  The head as a whole: after the ten grid points have each written back their block of 5000 rows, the result array is the
  head of the three arrays the region was entered with — the features, the 64 x 1 weight column and the one bias.

  Point t reads rows 5000 t .. 5000 t + 4999 of the features and the whole weight and bias arrays, and writes rows
  5000 t .. 5000 t + 4999 of the result.  The head is row-local, so what point t writes back is block t of the head of the
  whole arrays; row r lies in the block of point r / 5000, so the ten blocks cover the array.
-/
import proofs.«145478_j84121229460235_1_alg».proof.Proof.Gen.KernelIdeal.Frame
import proofs.«145478_j84121229460235_1_alg».proof.Proof.Blocks

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero2 : (![0, 0] : Fin 2 → Nat) = fun _ => 0 := funext fun a => by fin_cases a <;> rfl
theorem zero1 : (![0] : Fin 1 → Nat) = fun _ => 0 := funext fun a => by fin_cases a <;> rfl

/-- What the body leaves in the result's staging buffer is the head of the three loaded blocks. -/
theorem out_eq (x0 : Vec Ideal S5000x64 .f32) (x1 : Vec Ideal S64x1 .f32) (x2 : Vec Ideal S1 .f32) :
    out2_3 x0 x1 x2 = Cheb.head (R := 5000) x0 x1 x2 := by
  unfold out2_3
  rw [View.canon_unit_zero zero2]
  simp only [View.ld_unit_zero (S := S5000x64) zero2, View.ld_unit_zero (S := S64x1) zero2, View.ld_unit_zero (S := S1) zero1]
  funext j
  obtain ⟨p, q, rfl⟩ : ∃ (p : Fin 5000) (q : Fin 1), j = ix2 p q := ⟨j 0, j 1, eq_ix2 j⟩
  obtain rfl : q = 0 := Subsingleton.elim _ _
  rw [Blocks.pay2_apply, Cheb.head_ix2]
  rfl

variable (V : (c : Dev nD) → (b : Ref sig .tc) → Buf (Elt Ideal) ((c : Thread nD τ).loc b))

/-- The printed index maps over the grid: the features and the result are at block row t, column block 0; the weights and
    the bias are at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the head of the arrays the region was entered with. -/
theorem flushed_eq (c : Dev nD) (t : Fin cfg2.N) :
    (dat2 (F := Ideal) V c).flushed 3 t = ((cfg2.win 3).blk t).view.read (Elt Ideal)
      (Cheb.head (R := 50000) (V c main_v81) (V c main_arg5) (V c main_arg6)) := by
  show (cfg2.win 3).cut (grid2.coords t) ((dat2 (F := Ideal) V c).after 3 t) = _
  rw [after2_3, out_eq]
  obtain ⟨a00, a01, a10, a11, a20, a30, a31⟩ := idx_facts t
  have e1 : iblk2 V c 1 t = V c main_arg5 := by
    funext y
    show V c main_arg5 (((cfg2.win 1).blk t).view.emb y) = V c main_arg5 y
    refine congrArg (V c main_arg5) (funext fun a => Fin.ext ?_)
    match a with
    | ⟨0, _⟩ => show win2_1.index t (0 : Fin 2) * 64 + 1 * (y 0).val = (y 0).val; omega
    | ⟨1, _⟩ => show win2_1.index t (1 : Fin 2) * 1 + 1 * (y 1).val = (y 1).val; omega
  have e2 : iblk2 V c 2 t = V c main_arg6 := by
    funext y
    show V c main_arg6 (((cfg2.win 2).blk t).view.emb y) = V c main_arg6 y
    refine congrArg (V c main_arg6) (funext fun a => Fin.ext ?_)
    match a with
    | ⟨0, _⟩ => show win2_2.index t (0 : Fin 1) * 1 + 1 * (y 0).val = (y 0).val; omega
  funext j
  show Cheb.head (R := 5000) (iblk2 V c 0 t) (iblk2 V c 1 t) (iblk2 V c 2 t) j
    = Cheb.head (R := 50000) (V c main_v81) (V c main_arg5) (V c main_arg6) (((cfg2.win 3).blk t).view.emb j)
  refine Cheb.head_block (R := 50000) (R' := 5000) (V c main_v81) (iblk2 V c 0 t) (V c main_arg5) (iblk2 V c 1 t)
    (V c main_arg6) (iblk2 V c 2 t) (((cfg2.win 3).blk t).view.emb j) j (fun k => ?_) e1 e2
  show V c main_v81 (((cfg2.win 0).blk t).view.emb (ix2 (j 0) k)) = V c main_v81 (ix2 ((((cfg2.win 3).blk t).view.emb j) 0) k)
  refine congrArg (V c main_v81) (funext fun a => Fin.ext ?_)
  match a with
  | ⟨0, _⟩ => show win2_0.index t (0 : Fin 2) * 5000 + 1 * (j 0).val = win2_3.index t (0 : Fin 2) * 5000 + 1 * (j 0).val; omega
  | ⟨1, _⟩ => show win2_0.index t (1 : Fin 2) * 64 + 1 * k.val = k.val; omega

/-- An index of the result array is in point `t`'s block iff each coordinate is in the block's range on its axis. -/
theorem mem_blk (t : Fin cfg2.N) (i : S50000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v82).slice (win2_3.rect t)).set ↔ _
  rw [View.set_slice_whole, Rect.mem_set_unit]
  exact Iff.rfl

/-- Row r is in the block of point r / 5000. -/
theorem cover (i : S50000x1.Idx) : ∃ t : Fin cfg2.N, (cfg2.win 3).flush t = true ∧ i ∈ ((cfg2.win 3).blk t).view.set := by
  have hi0 : (i 0).val < 50000 := (i 0).isLt
  have hi1 : (i 1).val < 1 := (i 1).isLt
  have hN : (i 0).val / 5000 < cfg2.N := by show (i 0).val / 5000 < grid2.N; rw [N_2]; omega
  refine ⟨⟨(i 0).val / 5000, hN⟩, flush2_3 _, ?_⟩
  obtain ⟨-, -, -, -, -, a30, a31⟩ := idx_facts ⟨(i 0).val / 5000, hN⟩
  rw [mem_blk]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [a30]; show (i 0).val / 5000 * 5000 ≤ (i 0).val ∧ (i 0).val < (i 0).val / 5000 * 5000 + 5000; omega
  | ⟨1, _⟩ =>
    show win2_3.index ⟨(i 0).val / 5000, hN⟩ (1 : Fin 2) * 1 ≤ (i 1).val ∧ (i 1).val < win2_3.index ⟨(i 0).val / 5000, hN⟩ (1 : Fin 2) * 1 + 1
    rw [a31]; omega

/-- The result array after the region: the head of the arrays it was entered with. -/
theorem arr (c : Dev nD) : (dat2 (F := Ideal) V c).arrAt 3 cfg2.N
    = Cheb.head (R := 50000) (V c main_v81) (V c main_arg5) (V c main_arg6) :=
  (dat2 (F := Ideal) V c).arrAt_eq_of_cover 3 _ (fun t _ => flushed_eq V c t) cover

end Cert.KernelIdeal.Region2

end
-- ==== Proof.KernelValue.lean ====
/-
  The idealized kernel program's result as one function of the argument arrays.

  The buffer contents at the segment boundaries are a fold from the launch memory.  Read back:
    * the three stretches of host operations before the first dense stage leave the normalisation column, the two Chebyshev
      terms of the input features, and the first layer's weights and biases;
    * the first dense stage leaves the first layer's output (the region's result array as one function of its entry arrays);
    * the fourth stretch computes the Chebyshev terms of that output and slices the second layer's weights and biases;
    * the second dense stage leaves the second layer's output, the head the result.
  No segment writes an argument array.  Composed, the result buffer holds the network of the seven arguments.
-/
import proofs.«145478_j84121229460235_1_alg».proof.Proof.Gen.KernelIdeal.Frame
import proofs.«145478_j84121229460235_1_alg».proof.Proof.Chain
import proofs.«145478_j84121229460235_1_alg».proof.Proof.Entry0
import proofs.«145478_j84121229460235_1_alg».proof.Proof.Entry0T1
import proofs.«145478_j84121229460235_1_alg».proof.Proof.Entry0T2
import proofs.«145478_j84121229460235_1_alg».proof.Proof.Entry1
import proofs.«145478_j84121229460235_1_alg».proof.Proof.Region0
import proofs.«145478_j84121229460235_1_alg».proof.Proof.Region1
import proofs.«145478_j84121229460235_1_alg».proof.Proof.Region2

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Chain
open Cert.KernelIdeal.Entry0 Cert.KernelIdeal.Entry0T1 Cert.KernelIdeal.Entry0T2 Cert.KernelIdeal.Entry1

variable (m : (ℓ : Loc nD τ sig) → Buf (Elt Ideal) ℓ) (ρ : Dev nD → PrngReg) (c : Dev nD)

/-! ## At the first dense stage's exit -/

/-- The first layer's output. -/
theorem w4_out : W4 m ρ c (Proc.devRef .tc main_v44)
    = layer (m ((c.tc : Thread nD τ).loc main_arg0)) (m ((c.tc : Thread nD τ).loc main_arg1)) (m ((c.tc : Thread nD τ).loc main_arg2)) (normCol (m ((c.tc : Thread nD τ).loc main_arg2))) (weights0 (m ((c.tc : Thread nD τ).loc main_arg3))) (bias0 (m ((c.tc : Thread nD τ).loc main_arg4))) := by
  refine (W4_arr m ρ c 5).trans ((Region0.arr (V3 m ρ) c).trans ?_)
  show Cheb.combine (R := 50000) (W3 m ρ c (Proc.devRef .tc main_arg0)) (W3 m ρ c (Proc.devRef .tc main_v26)) (W3 m ρ c (Proc.devRef .tc main_v43))
    (W3 m ρ c (Proc.devRef .tc main_v9)) (W3 m ρ c (Proc.devRef .tc main_v11)) = _
  rw [w3_arg0, w3_t1, w3_t2, w3_w, w3_b]
  rfl

theorem w4_arg1 : W4 m ρ c (Proc.devRef .tc main_arg1) = (m ((c.tc : Thread nD τ).loc main_arg1)) := (W4_of_ne m ρ c main_arg1 (by decide)).trans (w3_arg1 m ρ c)
theorem w4_arg2 : W4 m ρ c (Proc.devRef .tc main_arg2) = (m ((c.tc : Thread nD τ).loc main_arg2)) := (W4_of_ne m ρ c main_arg2 (by decide)).trans (w3_arg2 m ρ c)
theorem w4_arg3 : W4 m ρ c (Proc.devRef .tc main_arg3) = (m ((c.tc : Thread nD τ).loc main_arg3)) := (W4_of_ne m ρ c main_arg3 (by decide)).trans (w3_arg3 m ρ c)
theorem w4_arg4 : W4 m ρ c (Proc.devRef .tc main_arg4) = (m ((c.tc : Thread nD τ).loc main_arg4)) := (W4_of_ne m ρ c main_arg4 (by decide)).trans (w3_arg4 m ρ c)
theorem w4_norm : W4 m ρ c (Proc.devRef .tc main_v7) = normCol (F := Ideal) (m ((c.tc : Thread nD τ).loc main_arg2)) := (W4_of_ne m ρ c main_v7 (by decide)).trans (w3_norm m ρ c)

/-! ## At the second dense stage's exit, and the head's -/

/-- The second layer's output. -/
theorem w6_out : W6 m ρ c (Proc.devRef .tc main_v81)
    = layer (layer (m ((c.tc : Thread nD τ).loc main_arg0)) (m ((c.tc : Thread nD τ).loc main_arg1)) (m ((c.tc : Thread nD τ).loc main_arg2)) (normCol (m ((c.tc : Thread nD τ).loc main_arg2))) (weights0 (m ((c.tc : Thread nD τ).loc main_arg3))) (bias0 (m ((c.tc : Thread nD τ).loc main_arg4))))
        (m ((c.tc : Thread nD τ).loc main_arg1)) (m ((c.tc : Thread nD τ).loc main_arg2)) (normCol (m ((c.tc : Thread nD τ).loc main_arg2))) (weights1 (m ((c.tc : Thread nD τ).loc main_arg3))) (bias1 (m ((c.tc : Thread nD τ).loc main_arg4))) := by
  refine (W6_arr m ρ c 5).trans ((Region1.arr (V5 m ρ) c).trans ?_)
  show Cheb.combine (R := 50000) (W5 m ρ c (Proc.devRef .tc main_v44)) (W5 m ρ c (Proc.devRef .tc main_v63)) (W5 m ρ c (Proc.devRef .tc main_v80))
    (W5 m ρ c (Proc.devRef .tc main_v46)) (W5 m ρ c (Proc.devRef .tc main_v48)) = _
  rw [w5_in, w5_t1, w5_t2, w5_w, w5_b, w4_out, w4_arg1, w4_arg2, w4_arg3, w4_arg4, w4_norm]
  rfl

theorem w6_arg5 : W6 m ρ c (Proc.devRef .tc main_arg5) = (m ((c.tc : Thread nD τ).loc main_arg5)) :=
  ((W7_arr m ρ c 1).trans (((dat2 (V6 m ρ) c).arrAt_in 1 rfl _).trans (A_eq2 (V6 m ρ) c 1))).symm.trans (W7_main_arg5 m ρ c)
theorem w6_arg6 : W6 m ρ c (Proc.devRef .tc main_arg6) = (m ((c.tc : Thread nD τ).loc main_arg6)) :=
  ((W7_arr m ρ c 2).trans (((dat2 (V6 m ρ) c).arrAt_in 2 rfl _).trans (A_eq2 (V6 m ρ) c 2))).symm.trans (W7_main_arg6 m ρ c)

/-- The result buffer at the last boundary is the network of the seven arguments. -/
theorem result_eq : W7 m ρ c (Proc.devRef .tc main_v82)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W7_arr m ρ c 3).trans ((Region2.arr (V6 m ρ) c).trans ?_)
  show Cheb.head (R := 50000) (W6 m ρ c (Proc.devRef .tc main_v81)) (W6 m ρ c (Proc.devRef .tc main_arg5)) (W6 m ρ c (Proc.devRef .tc main_arg6)) = _
  rw [w6_out, w6_arg5, w6_arg6]
  rfl

end Cert.KernelIdeal.Whole

end
-- ==== Proof.LibPlainDot.lean ====
/-
  A plain matrix product on the host, read at an index over the extended reals.
-/
import Idealize.ShloMosaic.PureOps.Ideal.Laws
import Idealize.ShloMosaic.Lib.ValueIdx
import Idealize.ShloMosaic.Lib.Pipeline.Value

noncomputable section

namespace Idealize.ShloMosaic.PlainDot

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals the host's plain matrix product is, at row `p` and column `q`, the sum over the contracted
    coordinate `k` of the left operand at `(p, k)` times the right operand at `(k, q)`, whatever the precision. -/
theorem dotGeneral_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (dims wf) prec lhs rhs (ix2 p q) = ∑ k : Fin K, lhs (ix2 p k) * rhs (ix2 k q) := by
  simp only [Host.dotGeneral]
  rw [Ideal.dotGeneral_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainDot

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.RefSide.lean ====
/-
  The idealized reference's result as the same function of the argument arrays.

  The reference computes each layer on the host: three matrix products of the Chebyshev terms with the slabs of the layer's
  weight array, added in order, plus the biases along every row, then the maximum with zero.  Over the extended reals a
  host matrix product read at (p, q) is the sum over the 64 contracted features, slab o of the weights read at (k, q) is
  entry (o, k, q), the bias row read at (p, q) is bias q: entry by entry this is the dense stage (`dense_eq`), and the
  head likewise (`head_eq`).  The graph side (the normalisation column, the aggregation, the Chebyshev terms, the slices
  of the stacked weights and biases) is, operation for operation, the chain of host operations the kernel's program runs,
  so each of those stages is the corresponding chain function by unfolding.  Composed: the reference's result is the
  network of its seven arguments.
-/
import proofs.«145478_j84121229460235_1_alg».proof.Proof.Gen.ReferenceIdeal.Read
import proofs.«145478_j84121229460235_1_alg».proof.Proof.Chain
import proofs.«145478_j84121229460235_1_alg».proof.Proof.LibPlainDot
import proofs.«145478_j84121229460235_1_alg».proof.Proof.LibLayoutIx
import Idealize.ShloMosaic.Lib.Pipeline.Value
import Idealize.ShloMosaic.Lib.ValueIdx

set_option maxRecDepth 8192

noncomputable section

namespace Cert.ReferenceIdeal.RefValue

open Idealize.ShloMosaic Idealize.ShloMosaic.ValueIdx
open Cert.ReferenceIdeal Cert.ReferenceIdeal.Gen Cert.ReferenceIdeal.Read

/-- A host 50000 x 64 by 64 x 64 product at (p, q): the sum over the contracted feature. -/
theorem dg64 (l : FVec Ideal S50000x64 .f32) (r : FVec Ideal S64x64 .f32) (p : Fin 50000) (q : Fin 64) :
    Host.dotGeneral dot_S50000x64_S64x64_S50000x64_1_0_0_1_n_n none l r (ix2 p q) = ∑ k : Fin 64, l (ix2 p k) * r (ix2 k q) :=
  PlainDot.dotGeneral_apply (M := 50000) (K := 64) (N := 64) dot_S50000x64_S64x64_S50000x64_1_0_0_1_n_n.wf none l r p q

/-- A host 50000 x 64 by 64 x 1 product at (p, q). -/
theorem dg1 (l : FVec Ideal S50000x64 .f32) (r : FVec Ideal S64x1 .f32) (p : Fin 50000) (q : Fin 1) :
    Host.dotGeneral dot_S50000x64_S64x1_S50000x1_1_0_0_1_n_n none l r (ix2 p q) = ∑ k : Fin 64, l (ix2 p k) * r (ix2 k q) :=
  PlainDot.dotGeneral_apply (M := 50000) (K := 64) (N := 1) dot_S50000x64_S64x1_S50000x1_1_0_0_1_n_n.wf none l r p q

/-- Slab `o` of a [3, 64, 64] array, sliced out as a [1, 64, 64] piece and viewed as a matrix: entry (k, q) is entry (o, k, q). -/
theorem slab_ix {α : Type} (w : S3x64x64.Idx → α) (o : Fin 3) (off : Fin 3 → Nat) (hoff : off = ![o.val, 0, 0])
    (h : S3x64x64.Slices off S1x64x64) (k q : Fin 64) :
    shapeCast S64x64 (extractStridedSlice S1x64x64 off w h) shapeCasts_S1x64x64_S64x64 (ix2 k q) = w (ix3 o k q) := by
  subst hoff
  refine (shapeCast_apply _ shapeCasts_S1x64x64_S64x64 (ix2 k q) (ix3 (0 : Fin 1) k q)
    (by rw [Shape.rowMajor_val_three, Shape.rowMajor_val_two]; show (0 * 64 + k.val) * 64 + q.val = k.val * 64 + q.val; omega)).trans ?_
  refine extractStridedSlice_apply _ w h _ (ix3 o k q) (fun a => ?_)
  match a with
  | ⟨0, _⟩ => show o.val = o.val + 0; omega
  | ⟨1, _⟩ => show k.val = 0 + k.val; omega
  | ⟨2, _⟩ => show q.val = 0 + q.val; omega

/-- A layer as the host computes it is the dense stage of its operands. -/
theorem dense_eq (t0 t1 t2 : FVec Ideal S50000x64 .f32) (w : FVec Ideal S3x64x64 .f32) (b : FVec Ideal S64 .f32) :
    maximumf
      (addf (addf (addf
          (Host.dotGeneral dot_S50000x64_S64x64_S50000x64_1_0_0_1_n_n none t0
            (shapeCast S64x64 (extractStridedSlice S1x64x64 ![0, 0, 0] w slices_S3x64x64_S1x64x64_0_0_0) shapeCasts_S1x64x64_S64x64))
          (Host.dotGeneral dot_S50000x64_S64x64_S50000x64_1_0_0_1_n_n none t1
            (shapeCast S64x64 (extractStridedSlice S1x64x64 ![1, 0, 0] w slices_S3x64x64_S1x64x64_1_0_0) shapeCasts_S1x64x64_S64x64)))
          (Host.dotGeneral dot_S50000x64_S64x64_S50000x64_1_0_0_1_n_n none t2
            (shapeCast S64x64 (extractStridedSlice S1x64x64 ![2, 0, 0] w slices_S3x64x64_S1x64x64_2_0_0) shapeCasts_S1x64x64_S64x64)))
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
    = Cheb.combine (R := 50000) t0 t1 t2 w b := by
  funext i
  obtain ⟨p, q, rfl⟩ : ∃ (p : Fin 50000) (q : Fin 64), i = ix2 p q := ⟨i 0, i 1, eq_ix2 i⟩
  rw [maximumf_apply, addf_apply, addf_apply, addf_apply, dg64, dg64, dg64,
    LayoutIx.bcast_rows ![0, 1] rfl rfl, LayoutIx.bcast_row ![1] rfl, LayoutIx.bcast_scalar, Cheb.combine_ix2]
  unfold Cheb.combineAt
  have e0 : ∀ k : Fin 64, shapeCast S64x64 (extractStridedSlice S1x64x64 ![0, 0, 0] w slices_S3x64x64_S1x64x64_0_0_0) shapeCasts_S1x64x64_S64x64 (ix2 k q)
      = w (ix3 (0 : Fin 3) k q) := fun k => slab_ix w 0 _ rfl _ k q
  have e1 : ∀ k : Fin 64, shapeCast S64x64 (extractStridedSlice S1x64x64 ![1, 0, 0] w slices_S3x64x64_S1x64x64_1_0_0) shapeCasts_S1x64x64_S64x64 (ix2 k q)
      = w (ix3 (1 : Fin 3) k q) := fun k => slab_ix w 1 _ rfl _ k q
  have e2 : ∀ k : Fin 64, shapeCast S64x64 (extractStridedSlice S1x64x64 ![2, 0, 0] w slices_S3x64x64_S1x64x64_2_0_0) shapeCasts_S1x64x64_S64x64 (ix2 k q)
      = w (ix3 (2 : Fin 3) k q) := fun k => slab_ix w 2 _ rfl _ k q
  simp only [e0, e1, e2]
  rfl

/-- The head as the host computes it. -/
theorem head_eq (h : FVec Ideal S50000x64 .f32) (pw : FVec Ideal S64x1 .f32) (pb : FVec Ideal S1 .f32) :
    addf (Host.dotGeneral dot_S50000x64_S64x1_S50000x1_1_0_0_1_n_n none h pw)
      (broadcastInDim S50000x1 ![0, 1] bcast_S1x1_S50000x1_0_1 (broadcastInDim S1x1 ![1] bcast_S1_S1x1_1 pb))
    = Cheb.head (R := 50000) h pw pb := by
  funext i
  obtain ⟨p, q, rfl⟩ : ∃ (p : Fin 50000) (q : Fin 1), i = ix2 p q := ⟨i 0, i 1, eq_ix2 i⟩
  obtain rfl : q = 0 := Subsingleton.elim _ _
  rw [addf_apply, dg1, LayoutIx.bcast_rows ![0, 1] rfl rfl, LayoutIx.bcast_row ![1] rfl, Cheb.head_ix2]
  rfl

variable (a0 : FVec Ideal S50000x64 .f32) (a1 a2 : IVec S800000 32) (a3 : FVec Ideal S2x3x64x64 .f32) (a4 : FVec Ideal S2x64 .f32)
  (a5 : FVec Ideal S64x1 .f32) (a6 : FVec Ideal S1 .f32)

/-! ## The graph side, stage by stage: the same host operations as the kernel's program -/

theorem norm_eq : val_main_v7 (F := Ideal) a2 = Cert.KernelIdeal.Chain.normCol (F := Ideal) a2 := rfl
theorem w0_eq : val_main_v9 (F := Ideal) a3 = Cert.KernelIdeal.Chain.weights0 (F := Ideal) a3 := rfl
theorem b0_eq : val_main_v11 (F := Ideal) a4 = Cert.KernelIdeal.Chain.bias0 (F := Ideal) a4 := rfl
theorem w1_eq : val_main_v60 (F := Ideal) a3 = Cert.KernelIdeal.Chain.weights1 (F := Ideal) a3 := rfl
theorem b1_eq : val_main_v62 (F := Ideal) a4 = Cert.KernelIdeal.Chain.bias1 (F := Ideal) a4 := rfl
theorem t1_eq : val_main_v26 (F := Ideal) a0 a1 a2 = Cert.KernelIdeal.Chain.term1 (F := Ideal) a0 a1 a2 (Cert.KernelIdeal.Chain.normCol (F := Ideal) a2) := rfl
theorem t2_eq : val_main_v50 (F := Ideal) a0 a1 a2 = Cert.KernelIdeal.Chain.term2 (F := Ideal) a0 a1 a2 (Cert.KernelIdeal.Chain.normCol (F := Ideal) a2) := rfl
theorem t1'_eq : val_main_v77 (F := Ideal) a0 a1 a2 a3 a4
    = Cert.KernelIdeal.Chain.term1 (F := Ideal) (val_main_v58 (F := Ideal) a0 a1 a2 a3 a4) a1 a2 (Cert.KernelIdeal.Chain.normCol (F := Ideal) a2) := rfl
theorem t2'_eq : val_main_v101 (F := Ideal) a0 a1 a2 a3 a4
    = Cert.KernelIdeal.Chain.term2 (F := Ideal) (val_main_v58 (F := Ideal) a0 a1 a2 a3 a4) a1 a2 (Cert.KernelIdeal.Chain.normCol (F := Ideal) a2) := rfl

/-! ## The layers and the result -/

/-- The first layer's output. -/
theorem layer1_eq : val_main_v58 (F := Ideal) a0 a1 a2 a3 a4
    = Cert.KernelIdeal.Chain.layer a0 a1 a2 (Cert.KernelIdeal.Chain.normCol (F := Ideal) a2) (Cert.KernelIdeal.Chain.weights0 (F := Ideal) a3) (Cert.KernelIdeal.Chain.bias0 (F := Ideal) a4) := by
  refine (show val_main_v58 (F := Ideal) a0 a1 a2 a3 a4 = _ from rfl).trans
    ((dense_eq a0 (val_main_v26 (F := Ideal) a0 a1 a2) (val_main_v50 (F := Ideal) a0 a1 a2) (val_main_v9 (F := Ideal) a3) (val_main_v11 (F := Ideal) a4)).trans ?_)
  rw [t1_eq, t2_eq, w0_eq, b0_eq]
  rfl

/-- The second layer's output. -/
theorem layer2_eq : val_main_v109 (F := Ideal) a0 a1 a2 a3 a4
    = Cert.KernelIdeal.Chain.layer (Cert.KernelIdeal.Chain.layer a0 a1 a2 (Cert.KernelIdeal.Chain.normCol (F := Ideal) a2) (Cert.KernelIdeal.Chain.weights0 (F := Ideal) a3) (Cert.KernelIdeal.Chain.bias0 (F := Ideal) a4)) a1 a2 (Cert.KernelIdeal.Chain.normCol (F := Ideal) a2)
        (Cert.KernelIdeal.Chain.weights1 (F := Ideal) a3) (Cert.KernelIdeal.Chain.bias1 (F := Ideal) a4) := by
  refine (show val_main_v109 (F := Ideal) a0 a1 a2 a3 a4 = _ from rfl).trans
    ((dense_eq (val_main_v58 (F := Ideal) a0 a1 a2 a3 a4) (val_main_v77 (F := Ideal) a0 a1 a2 a3 a4) (val_main_v101 (F := Ideal) a0 a1 a2 a3 a4)
      (val_main_v60 (F := Ideal) a3) (val_main_v62 (F := Ideal) a4)).trans ?_)
  rw [t1'_eq, t2'_eq, w1_eq, b1_eq, layer1_eq]
  rfl

/-- The reference's result is the network of its arguments. -/
theorem result_eq : val_main_v113 (F := Ideal) a0 a1 a2 a3 a4 a5 a6 = Cert.KernelIdeal.Chain.net a0 a1 a2 a3 a4 a5 a6 := by
  refine (show val_main_v113 (F := Ideal) a0 a1 a2 a3 a4 a5 a6 = _ from rfl).trans
    ((head_eq (val_main_v109 (F := Ideal) a0 a1 a2 a3 a4) a5 a6).trans ?_)
  rw [layer2_eq]
  rfl

end Cert.ReferenceIdeal.RefValue

end
-- ==== Proof.lean ====
/-
  Two programs for a two-layer Chebyshev graph network with a linear head, on 50000 nodes with 64 features and 800000
  edges, are equal over the extended reals.

  Both programs normalise by in-degree, n = max(1, deg)^(-1/2), and for each layer form the Chebyshev terms of the layer's
  input x with the normalised adjacency A:  T0 = x,  T1 = -A x,  T2 = -2 A T1 - x, by the same gathers and scatter-adds.
  The layer's output is  max(((T0 W0 + T1 W1) + T2 W2) + b, 0); the head maps the second layer's output h to  h pw + pb.

  The reference forms each layer's output and the head with whole-array matrix products on the host.  The kernel's
  program forms them in three grid-pipelined regions of ten points each: a point loads 5000 rows of the row-indexed
  operands and the whole weights and biases, multiplies into a zero accumulator (after rounding the operands to a
  shorter float format, which is the identity over the extended reals), and stores 5000 rows of the result.  A matrix
  product with fixed right factor is row-local, so the ten stored blocks are the blocks of the whole-array result and
  they cover it.  No sum is re-associated and no factor is moved across a sum: the two results are the same sums of
  the same products, so the equality holds at every input and the finiteness of the inputs is not used.

    Proof/Spec          the dense stage and the head as functions of whole arrays, for any number of rows; row-locality
    Proof/Blocks        what each kernel body stores, entry by entry
    Proof/Region0,1,2   each region's result array as the dense stage / the head of its entry arrays
    Proof/KernelRun     the kernel program's run with the result buffer named
    Proof/Chain         the graph side as functions of whole arrays; a layer; the network
    Proof/KernelValue   the kernel program's result is the network of its arguments
    Proof/RefSide       the reference's result is the network of its arguments
-/
import proofs.«145478_j84121229460235_1_alg».proof.Defs
import proofs.«145478_j84121229460235_1_alg».proof.Proof.Gen.Kernel
import proofs.«145478_j84121229460235_1_alg».proof.Proof.Gen.Kernel.Skeleton
import proofs.«145478_j84121229460235_1_alg».proof.Proof.Gen.Kernel.Launch
import proofs.«145478_j84121229460235_1_alg».proof.Proof.Gen.Kernel.Points
import proofs.«145478_j84121229460235_1_alg».proof.Proof.Gen.Kernel.Frame
import proofs.«145478_j84121229460235_1_alg».proof.Proof.Gen.KernelIdeal
import proofs.«145478_j84121229460235_1_alg».proof.Proof.Gen.KernelIdeal.Skeleton
import proofs.«145478_j84121229460235_1_alg».proof.Proof.Gen.KernelIdeal.Launch
import proofs.«145478_j84121229460235_1_alg».proof.Proof.Gen.KernelIdeal.Points
import proofs.«145478_j84121229460235_1_alg».proof.Proof.Gen.KernelIdeal.Frame
import proofs.«145478_j84121229460235_1_alg».proof.Proof.Gen.ReferenceIdeal
import proofs.«145478_j84121229460235_1_alg».proof.Proof.Gen.ReferenceIdeal.Run
import proofs.«145478_j84121229460235_1_alg».proof.Proof.Gen.ReferenceIdeal.Read
import proofs.«145478_j84121229460235_1_alg».proof.Proof.Gen.Pre_finite_inputs
import proofs.«145478_j84121229460235_1_alg».proof.Proof.KernelRun
import proofs.«145478_j84121229460235_1_alg».proof.Proof.KernelValue
import proofs.«145478_j84121229460235_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of those arguments in their result buffer. -/
theorem algebraic : Cert.algebraic_KernelIdeal_ReferenceIdeal := by
  intro m ρ m' ρ' _ hagree
  refine ⟨fun c => Cert.KernelIdeal.Chain.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v113_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
